-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S100000x1 : Shape := ⟨2, ![100000, 1]⟩
abbrev S10000x1 : Shape := ⟨2, ![10000, 1]⟩
abbrev S1x64 : Shape := ⟨2, ![1, 64]⟩
abbrev S10000 : Shape := ⟨1, ![10000]⟩
abbrev S1x1 : Shape := ⟨2, ![1, 1]⟩

abbrev nBuf : Space → Nat
  | .hbm => 80
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S100000x1, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x1, .f32⟩
  | .hbm, ⟨73, _⟩ => ⟨S3300000x1, .f32⟩
  | .hbm, ⟨74, _⟩ => ⟨S3300000x1, .f32⟩
  | .hbm, ⟨75, _⟩ => ⟨S_, .f32⟩
  | .hbm, ⟨76, _⟩ => ⟨S100000x1, .f32⟩
  | .hbm, ⟨77, _⟩ => ⟨S3300000x1, .i32⟩
  | .hbm, ⟨78, _⟩ => ⟨S100000x1, .f32⟩
  | .hbm, ⟨79, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x1, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S1, .f32⟩
  | .local _ .vmem, ⟨14, _⟩ => ⟨S10000x1, .f32⟩
  | .local _ .vmem, ⟨15, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  shapeCasts_S64x1_S64 : S64x1.ShapeCasts S64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S10000x1_S10000x1 : S10000x1.ShapeCasts S10000x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .f32 = 32 ∨ (Rect.block (s := S100000x1) S10000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1.size a ≤ S1.size a
  hwx2_1 : ∀ i : grid2.Coords, EltTy.bits .f32 = 32 ∨ (Rect.block (s := S1) S1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x1, .f32⟩
  | 5 => ⟨S1, .f32⟩
  | 6 => ⟨S1x3200000, .i32⟩
  | 7 => ⟨S3200000, .i32⟩
  | 8 => ⟨S1x3200000, .i32⟩
  | 9 => ⟨S3200000, .i32⟩
  | 10 => ⟨S100000x64, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x1, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x1, .f32⟩
  | 115 => ⟨S3300000x1, .f32⟩
  | 116 => ⟨S3300000x1, .f32⟩
  | 117 => ⟨S_, .f32⟩
  | 118 => ⟨S100000x1, .f32⟩
  | 119 => ⟨S3300000x1, .i32⟩
  | 120 => ⟨S100000x1, .f32⟩
  | 121 => ⟨S1x1, .f32⟩
  | 122 => ⟨S100000x1, .f32⟩
  | 123 => ⟨S100000x1, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's whole run, with the result named.  @main is three pipelined regions among stretches of host
  operations.  Write W0 for the launch contents of a core's buffers and W1 … W8 for their contents after each
  stretch and each region in turn (a stretch applies its operations in order; a region leaves its arrays at what
  its grid points' write-backs compose to and every other buffer alone).  Every weakly fair execution terminates
  without a fault in a state whose unscoped buffers hold W8; read at the result buffer and at the six arguments
  (which nothing writes), that is the statement below.
-/
import proofs.«173352_j70446053589555_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W8`, and each argument array ends as launched. -/
theorem run_named : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.Walk3.lean ====
/-
  The host operations before the first region, read back.  From the launch contents the first three stretches of
  @main compute, from the edge list alone: the source indices with the self loops appended, the destination indices
  likewise, and the symmetric normalisation  dinv[src] · dinv[dst]  (dinv the reciprocal square root of the in-degree,
  zero where the degree is not positive).  Each is the same composition of the same operations as the reference's,
  so each buffer holds the reference's stage of the edge list.  No operation writes an argument, so the arguments are
  still the launch contents when region 0 is entered.
-/
import proofs.«173352_j70446053589555_1_alg».proof.Proof.Gen.KernelIdeal.Frame
import proofs.«173352_j70446053589555_1_alg».proof.Proof.RefReadPatched
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

/-- The source indices: the edges' sources, then one self loop per node. -/
theorem W1_v5 : W1 m ρ c (Proc.devRef .tc main_v5) = Cert.ReferenceIdeal.Read.val_main_v6 (F := Ideal) (m ((c.tc : Thread nD τ).loc main_arg1)) := by
  show StableHlo.after hostOps0 (W0 m ρ c) (Proc.devRef .tc main_v5) = _
  after_results_simp
  rfl
/-- The destination indices: the edges' destinations, then one self loop per node. -/
theorem W1_v6 : W1 m ρ c (Proc.devRef .tc main_v6) = Cert.ReferenceIdeal.Read.val_main_v7 (F := Ideal) (m ((c.tc : Thread nD τ).loc main_arg1)) := by
  show StableHlo.after hostOps0 (W0 m ρ c) (Proc.devRef .tc main_v6) = _
  after_results_simp
  rfl
/-- Where the in-degree (the number of edges into a node, self loop included) is positive. -/
theorem W1_v12 : W1 m ρ c (Proc.devRef .tc main_v12) = Cert.ReferenceIdeal.Read.val_main_v13 (F := Ideal) (m ((c.tc : Thread nD τ).loc main_arg1)) := by
  show StableHlo.after hostOps0 (W0 m ρ c) (Proc.devRef .tc main_v12) = _
  after_results_simp
  rfl
/-- The reciprocal square root of the in-degree. -/
theorem W1_v13 : W1 m ρ c (Proc.devRef .tc main_v13) = Cert.ReferenceIdeal.Read.val_main_v14 (F := Ideal) (m ((c.tc : Thread nD τ).loc main_arg1)) := by
  show StableHlo.after hostOps0 (W0 m ρ c) (Proc.devRef .tc main_v13) = _
  after_results_simp
  rfl
theorem W1_cst_2 : W1 m ρ c (Proc.devRef .tc main_cst_2) = Cert.ReferenceIdeal.Read.val_main_cst_2 (F := Ideal) := by
  show StableHlo.after hostOps0 (W0 m ρ c) (Proc.devRef .tc main_cst_2) = _
  after_results_simp
  rfl

/-! ## After the second stretch (the selection) -/

/-- The selection, for any contents the stretch starts from: the second operand where the first holds, the broadcast
    third elsewhere (the references of the called function carry their types, and their transports are identities). -/
theorem W2_v14_raw (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  dsimp only [hostOps0_1, TRef.unary, TRef.ternary, TRef.toBuf, TRef.ofBuf, TRef.of]
  after_results_simp
  generalize V (Proc.devRef .tc main_v12) = a
  generalize V (Proc.devRef .tc main_v13) = b
  generalize V (Proc.devRef .tc main_cst_2) = z
  rfl

/-- The reciprocal square root of the in-degree where it is positive, zero elsewhere. -/
theorem W2_v14 : W2 m ρ c (Proc.devRef .tc main_v14) = Cert.ReferenceIdeal.Read.val_main_v15 (F := Ideal) (m ((c.tc : Thread nD τ).loc main_arg1)) := by
  refine (W2_v14_raw (W1 m ρ c)).trans ?_
  rw [W1_v12, W1_v13, W1_cst_2]
  unfold Cert.ReferenceIdeal.Read.val_main_v15 Cert.ReferenceIdeal.Read.val_main_call0_v1 Cert.ReferenceIdeal.Read.val_main_call0_v0
  generalize Cert.ReferenceIdeal.Read.val_main_v13 (F := Ideal) (m ((c.tc : Thread nD τ).loc main_arg1)) = a
  generalize Cert.ReferenceIdeal.Read.val_main_v14 (F := Ideal) (m ((c.tc : Thread nD τ).loc main_arg1)) = b
  generalize Cert.ReferenceIdeal.Read.val_main_cst_2 (F := Ideal) = z
  rfl
theorem W2_v5 : W2 m ρ c (Proc.devRef .tc main_v5) = Cert.ReferenceIdeal.Read.val_main_v6 (F := Ideal) (m ((c.tc : Thread nD τ).loc main_arg1)) := by
  have h := W1_v5 m ρ c
  show StableHlo.after hostOps0_1 (W1 m ρ c) (Proc.devRef .tc main_v5) = _
  generalize W1 m ρ c = V at h ⊢
  dsimp only [hostOps0_1, TRef.unary, TRef.ternary, TRef.toBuf, TRef.ofBuf, TRef.of]
  after_results_simp
  exact h
theorem W2_v6 : W2 m ρ c (Proc.devRef .tc main_v6) = Cert.ReferenceIdeal.Read.val_main_v7 (F := Ideal) (m ((c.tc : Thread nD τ).loc main_arg1)) := by
  have h := W1_v6 m ρ c
  show StableHlo.after hostOps0_1 (W1 m ρ c) (Proc.devRef .tc main_v6) = _
  generalize W1 m ρ c = V at h ⊢
  dsimp only [hostOps0_1, TRef.unary, TRef.ternary, TRef.toBuf, TRef.ofBuf, TRef.of]
  after_results_simp
  exact h

/-! ## After the third stretch: what region 0 is entered with -/

/-- The per-edge normalisation: the product of the two gathered reciprocal roots. -/
theorem W3_v29 : W3 m ρ c (Proc.devRef .tc main_v29) = Cert.ReferenceIdeal.Read.val_main_v30 (F := Ideal) (m ((c.tc : Thread nD τ).loc main_arg1)) := by
  have h14 := W2_v14 m ρ c
  have h5 := W2_v5 m ρ c
  have h6 := W2_v6 m ρ c
  show StableHlo.after hostOps0_2 (W2 m ρ c) (Proc.devRef .tc main_v29) = _
  generalize W2 m ρ c = V at h14 h5 h6 ⊢
  after_results_simp
  rw [h14, h5, h6]
  rfl
theorem W3_v5 : W3 m ρ c (Proc.devRef .tc main_v5) = Cert.ReferenceIdeal.Read.val_main_v6 (F := Ideal) (m ((c.tc : Thread nD τ).loc main_arg1)) := by
  have h := W2_v5 m ρ c
  show StableHlo.after hostOps0_2 (W2 m ρ c) (Proc.devRef .tc main_v5) = _
  generalize W2 m ρ c = V at h ⊢
  after_results_simp
  exact h
theorem W3_v6 : W3 m ρ c (Proc.devRef .tc main_v6) = Cert.ReferenceIdeal.Read.val_main_v7 (F := Ideal) (m ((c.tc : Thread nD τ).loc main_arg1)) := by
  have h := W2_v6 m ρ c
  show StableHlo.after hostOps0_2 (W2 m ρ c) (Proc.devRef .tc main_v6) = _
  generalize W2 m ρ c = V at h ⊢
  after_results_simp
  exact h

theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp
theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp
theorem W3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp
theorem W3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp
theorem W3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp

end Cert.KernelIdeal.Hand

end
-- ==== Proof.Region0.lean ====
/-
  Region 0: the first linear layer.  Grid point t of ten multiplies rows 10000·t … 10000·t + 9999 of x (128 columns)
  with the whole weight matrix W1 (128 × 64) into a zero accumulator and writes the product back as the same rows of
  the result.  Over the extended reals the change of float format before the product is the identity and the product
  into zero is the plain sum  ∑ₖ x[r, k] · W1[k, j];  the ten row blocks tile the 100000 rows, so the result array ends
  as the whole product  x · W1  — the reference's contraction of x with W1 over the shared axis, entry by entry.
-/
import proofs.«173352_j70446053589555_1_alg».proof.Proof.Gen.KernelIdeal.Frame
import proofs.«173352_j70446053589555_1_alg».proof.Proof.RefReadPatched
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a block read whole. -/
theorem hz2 : (![0, 0] : Fin 2 → Nat) = fun _ => 0 := funext fun a => by fin_cases a <;> rfl

/-! ## The block product at an entry -/

theorem mm_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem mm_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem mm_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of a block's product: the sum over the 128 shared coordinates of row p of the left block times
    column q of the right one (the narrowing of both operands is the identity on the extended reals, and the
    accumulator is zero). -/
theorem mm_pay_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]
  rfl

/-! ## From the ten row blocks to the whole product -/

section
variable (V : (c : Dev nD) → (b : Ref sig .tc) → Buf (Elt Ideal) ((c : Thread nD τ).loc b))

/-- The index maps over the grid: the x block and the result block of point t are row block t (column block 0); the
    weight block is always the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product of the arrays the region finds. -/
theorem flushed0 (c : Dev nD) (t : Fin cfg0.N) :
    (dat0 V c).flushed 2 t = ((cfg0.win 2).blk t).view.read (Elt Ideal)
      (Cert.ReferenceIdeal.Read.val_main_v4 (F := Ideal) (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = Cert.ReferenceIdeal.Read.val_main_v4 (F := Ideal) (V c main_arg0) (V c main_arg2) (((cfg0.win 2).blk t).view.emb (ix2 p q))
  rw [mm_pay_apply, Cert.ReferenceIdeal.Read.val_main_v4_apply]
  refine Finset.sum_congr rfl fun k _ => ?_
  have hp : p.val < 10000 := p.isLt
  have hl : iblk0 V c 0 t (ix2 p k) = V c main_arg0 (Cert.ReferenceIdeal.Read.lidx_main_v4 (((cfg0.win 2).blk t).view.emb (ix2 p q)) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : iblk0 V c 1 t (ix2 k q) = V c main_arg2 (Cert.ReferenceIdeal.Read.ridx_main_v4 (((cfg0.win 2).blk t).view.emb (ix2 p q)) k) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hl, hr]

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks cover the 100000 rows: row r lies in block r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := idx_facts0 t
  have e4' : win0_2.index t (0 : Fin 2) = (i 0).val / 10000 := e4
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After region 0 its result array is the whole product of the two arrays it found. -/
theorem final0 (c : Dev nD) : (dat0 V c).arrAt 2 cfg0.N
    = Cert.ReferenceIdeal.Read.val_main_v4 (F := Ideal) (V c main_arg0) (V c main_arg2) :=
  (dat0 V c).arrAt_eq_of_cover 2 _ (fun t _ => flushed0 V c t) cover0

end

end Cert.KernelIdeal.Hand

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibColumn.lean ====
/-
  A column [a, 1] cast to a vector [a], read at an index: entry i of the vector is entry (i, 0) of the column
  (both are position i of the row-major order).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn

end
-- ==== Proof.Region1.lean ====
/-
  Region 1: bias, rectifier and the second linear layer, fused.  Grid point t of ten takes rows 10000·t … of the
  aggregated features a (64 columns), adds the bias b1 along each row, takes the maximum with zero, multiplies each
  row entrywise with the one column of W2 (64 × 1) and sums the 64 products of a row:
      out[r, 0] = ∑ₖ max(a[r, k] + b1[k], 0) · W2[k, 0].
  The reference adds the broadcast bias, takes the maximum with zero and contracts with W2 over the shared axis:
  the same finite sum, entry by entry.  The ten row blocks tile the 100000 rows.
-/
import proofs.«173352_j70446053589555_1_alg».proof.Proof.Gen.KernelIdeal.Frame
import proofs.«173352_j70446053589555_1_alg».proof.Proof.RefReadPatched
import proofs.«173352_j70446053589555_1_alg».proof.Proof.Region0
import proofs.«173352_j70446053589555_1_alg».proof.Proof.LibKeepdims
import proofs.«173352_j70446053589555_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz1 : (![0] : Fin 1 → Nat) = fun _ => 0 := funext fun a => by fin_cases a; rfl

/-! ## A row's sum at an entry -/

/-- Row p of the reduced vector with column k put back is entry (p, k). -/
theorem lift_row (h : S10000x64.Reduces [1] S10000) (p : Fin 10000) (k : Fin (S10000x64.size 1)) :
    h.lift (ix1 p) k = ix2 p (⟨k.val, k.isLt⟩ : Fin 64) := by
  funext c; apply Fin.ext
  fin_cases c <;> rfl

/-- One summand: the rectified, biased entry (p, k) times entry k of the weight column. -/
theorem k2_term (x0 : Vec Ideal S10000x64 .f32) (x1 : Vec Ideal S64 .f32) (x2 : Vec Ideal S64x1 .f32) (p : Fin 10000) (k : Fin 64) :
    mulf (maximumf (addf (shapeCast S10000x64 x0 shapeCasts_S10000x64_S10000x64)
          (broadcastTo S10000x64 (shapeCast S1x64 x1 shapeCasts_S64_S1x64) broadcasts_S1x64_S10000x64))
        (broadcast S10000x64 (Scalar.ofBits (F := Ideal) .f32 0x00000000#32)))
      (broadcastTo S10000x64 (shapeCast S1x64 (shapeCast S64 x2 shapeCasts_S64x1_S64) shapeCasts_S64_S1x64) broadcasts_S1x64_S10000x64) (ix2 p k)
    = max (x0 (ix2 p k) + x1 (ix1 k)) (Ideal.ofBits .f32 0x00000000#32) * x2 (ix2 k (0 : Fin 1)) := by
  show max (shapeCast S10000x64 x0 shapeCasts_S10000x64_S10000x64 (ix2 p k)
        + broadcastTo S10000x64 (shapeCast S1x64 x1 shapeCasts_S64_S1x64) broadcasts_S1x64_S10000x64 (ix2 p k))
      (Ideal.ofBits .f32 0x00000000#32)
    * broadcastTo S10000x64 (shapeCast S1x64 (shapeCast S64 x2 shapeCasts_S64x1_S64) shapeCasts_S64_S1x64) broadcasts_S1x64_S10000x64 (ix2 p k) = _
  rw [shapeCast_self, broadcastTo_1b_ab_apply, broadcastTo_1b_ab_apply, shapeCast_a_1a_apply, shapeCast_a_1a_apply,
    Cert.LibColumn.shapeCast_a1_a_apply]

/-- Entry (p, 0) of a block's result: the sum over the 64 columns of the rectified biased row p times the weight column. -/
theorem k2_pay_apply (x0 : Vec Ideal S10000x64 .f32) (x1 : Vec Ideal S64 .f32) (x2 : Vec Ideal S64x1 .f32) (p : Fin 10000) (u : Fin 1) :
    k1_pay1 (F := Ideal) x0 x1 x2 (ix2 p u)
      = ∑ k : Fin 64, max (x0 (ix2 p k) + x1 (ix1 k)) (Ideal.ofBits .f32 0x00000000#32) * x2 (ix2 k (0 : Fin 1)) := by
  unfold k1_pay1
  refine (Cert.LibKeepdims.shapeCast_a_a1_apply _ shapeCasts_S10000_S10000x1 p u).trans ?_
  refine (Ideal.multiReduction_add_single _ 0x00000000#32 reduces_S10000x64_S10000 (.inl rfl) rfl (ix1 p)).trans ?_
  show ∑ k : Fin 64, _ = _
  refine Finset.sum_congr rfl fun k _ => ?_
  have e : reduces_S10000x64_S10000.lift (ix1 p) k = ix2 p k := lift_row _ p k
  exact (congrArg _ e).trans (k2_term x0 x1 x2 p k)

/-! ## From the ten row blocks to the whole array -/

section
variable (V : (c : Dev nD) → (b : Ref sig .tc) → Buf (Elt Ideal) ((c : Thread nD τ).loc b))

/-- The index maps over the grid: the feature block and the result block of point t are row block t; bias and
    weight are always whole. -/
theorem idx_facts1 : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of the reference's second pre-activation, when the region finds the
    reference's aggregated features in its first array. -/
theorem flushed1 (c : Dev nD) (t : Fin cfg1.N)
    (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S128x64, .f32⟩ : BufTy).Contents (Elt Ideal))
    (hA : V c main_v43 = Cert.ReferenceIdeal.Read.val_main_v43 (F := Ideal) x0 x1 x2) :
    (dat1 V c).flushed 3 t = ((cfg1.win 3).blk t).view.read (Elt Ideal)
      (Cert.ReferenceIdeal.Read.val_main_v48 (F := Ideal) x0 x1 x2 (V c main_arg3) (V c main_arg4)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64) hz1, View.ld_unit_zero (S := S64x1) hz2]
  obtain ⟨e0, e1, e2, e3, e4, e5, e6⟩ := idx_facts1 t
  funext j
  obtain ⟨p, u, rfl⟩ : ∃ (p : Fin 10000) (u : Fin 1), j = ix2 p u := ⟨j 0, j 1, eq_ix2 j⟩
  have hcut : ∀ P : Vec Ideal S10000x1 .f32, (cfg1.win 3).cut (grid1.coords t) P (ix2 p u) = P (ix2 p u) := fun _ => rfl
  have hread : ∀ G : (⟨Cert.ReferenceIdeal.S100000x1, .f32⟩ : BufTy).Contents (Elt Ideal),
      ((cfg1.win 3).blk t).view.read (Elt Ideal) G (ix2 p u) = G (((cfg1.win 3).blk t).view.emb (ix2 p u)) := fun _ => rfl
  refine (hcut _).trans (Eq.trans ?_ (hread _).symm)
  rw [k2_pay_apply, Cert.ReferenceIdeal.Read.val_main_v48_apply]
  refine Finset.sum_congr rfl fun k _ => ?_
  rw [Cert.ReferenceIdeal.Read.val_main_v47_apply, Cert.ReferenceIdeal.Read.val_main_v46_apply,
    Cert.ReferenceIdeal.Read.val_main_v45_apply, Cert.ReferenceIdeal.Read.val_main_v44_apply,
    Cert.ReferenceIdeal.Read.val_main_call1_v0_apply, Cert.ReferenceIdeal.Read.val_main_call1_cst_apply, ← hA]
  have hp : p.val < 10000 := p.isLt
  have hu : u.val = 0 := by have := u.isLt; omega
  have h0 : iblk1 V c 0 t (ix2 p k) = V c main_v43 (Cert.ReferenceIdeal.Read.lidx_main_v48 (((cfg1.win 3).blk t).view.emb (ix2 p u)) k) := by
    show V c main_v43 (((cfg1.win 0).blk t).view.emb (ix2 p k)) = _
    refine congrArg (V c main_v43) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have h1 : iblk1 V c 1 t (ix1 k) = V c main_arg3 (Cert.ReferenceIdeal.Read.idx_main_v44 (Cert.ReferenceIdeal.Read.idx_main_v45
      (Cert.ReferenceIdeal.Read.lidx_main_v48 (((cfg1.win 3).blk t).view.emb (ix2 p u)) k))) := by
    show V c main_arg3 (((cfg1.win 1).blk t).view.emb (ix1 k)) = _
    refine congrArg (V c main_arg3) (funext fun a => Fin.ext ?_)
    match a with
    | ⟨0, _⟩ => show win1_1.index t (0 : Fin 1) * 64 + 1 * k.val = k.val; omega
  have h2 : iblk1 V c 2 t (ix2 k (0 : Fin 1)) = V c main_arg4 (Cert.ReferenceIdeal.Read.ridx_main_v48 (((cfg1.win 3).blk t).view.emb (ix2 p u)) k) := by
    show V c main_arg4 (((cfg1.win 2).blk t).view.emb (ix2 k (0 : Fin 1))) = _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 1 + 1 * 0 = win1_3.index t (1 : Fin 2) * 1 + 1 * u.val; omega
  rw [h0, h1, h2]
  rfl

/-- An index of the result array is in point t's block iff each coordinate is in the block's range on its axis. -/
theorem mem_blk1 (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v44).slice (win1_3.rect t)).set ↔ _
  rw [View.set_slice_whole, Rect.mem_set_unit]
  exact Iff.rfl

/-- The ten blocks cover the 100000 rows: row r lies in block r / 10000. -/
theorem cover1 (i : S100000x1.Idx) : ∃ t : Fin cfg1.N, (cfg1.win 3).flush t = true ∧ i ∈ ((cfg1.win 3).blk t).view.set := by
  have hi0 : (i 0).val < 100000 := (i 0).isLt
  have hi1 : (i 1).val < 1 := (i 1).isLt
  have hN : cfg1.N = 10 := N_1
  let t : Fin cfg1.N := ⟨(i 0).val / 10000, by rw [hN]; omega⟩
  obtain ⟨-, -, -, -, -, e5, e6⟩ := idx_facts1 t
  have e5' : win1_3.index t (0 : Fin 2) = (i 0).val / 10000 := e5
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 1 ≤ (i 1).val ∧ (i 1).val < win1_3.index t (1 : Fin 2) * 1 + 1; omega

/-- After region 1 its result array is the reference's second pre-activation of the arrays it found. -/
theorem final1 (c : Dev nD)
    (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S128x64, .f32⟩ : BufTy).Contents (Elt Ideal))
    (hA : V c main_v43 = Cert.ReferenceIdeal.Read.val_main_v43 (F := Ideal) x0 x1 x2) :
    (dat1 V c).arrAt 3 cfg1.N
      = Cert.ReferenceIdeal.Read.val_main_v48 (F := Ideal) x0 x1 x2 (V c main_arg3) (V c main_arg4) :=
  (dat1 V c).arrAt_eq_of_cover 3 _ (fun t _ => flushed1 V c t x0 x1 x2 hA) cover1

end

end Cert.KernelIdeal.Hand

end
-- ==== Proof.Region2.lean ====
/-
  Region 2: the output bias and the logistic function.  Grid point t of ten takes rows 10000·t … of the aggregated
  column a (one column), adds the one bias b2 to every row and applies the logistic function:
      out[r, 0] = logistic(a[r, 0] + b2[0]).
  The reference computes  1 / (1 + exp(−(a[r, 0] + b2[0])))  with the quotient, the sum, the exponential and the
  negation of the extended reals; the logistic function on the extended reals is, by definition, that expression
  (so the two agree at every extended real, the infinities included), and the float pattern of 1.0 is the number 1.
-/
import proofs.«173352_j70446053589555_1_alg».proof.Proof.Gen.KernelIdeal.Frame
import proofs.«173352_j70446053589555_1_alg».proof.Proof.RefReadPatched
import proofs.«173352_j70446053589555_1_alg».proof.Proof.Region0
import proofs.«173352_j70446053589555_1_alg».proof.Proof.Region1
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The block's result at an entry -/

/-- Entry (p, u) of a block's result: the logistic function of the entry plus the one bias. -/
theorem k3_pay_apply (x0 : Vec Ideal S10000x1 .f32) (x1 : Vec Ideal S1 .f32) (p : Fin 10000) (u : Fin 1) :
    k2_pay1 (F := Ideal) x0 x1 (ix2 p u) = Ideal.logistic (x0 (ix2 p u) + x1 (ix1 u)) := by
  unfold k2_pay1
  show Ideal.logistic (shapeCast S10000x1 x0 shapeCasts_S10000x1_S10000x1 (ix2 p u)
      + broadcastTo S10000x1 (shapeCast S1x1 x1 shapeCasts_S1_S1x1) broadcasts_S1x1_S10000x1 (ix2 p u)) = _
  rw [shapeCast_self, broadcastTo_1b_ab_apply, shapeCast_a_1a_apply]

/-! ## From the ten row blocks to the whole array -/

section
variable (V : (c : Dev nD) → (b : Ref sig .tc) → Buf (Elt Ideal) ((c : Thread nD τ).loc b))

/-- The index maps over the grid: the input block and the result block of point t are row block t; the bias is
    always whole. -/
theorem idx_facts2 : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What grid point t writes back is block t of the reference's result, when the region finds the reference's
    second aggregate in its first array. -/
theorem flushed2 (c : Dev nD) (t : Fin cfg2.N)
    (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal))
    (x4 : (⟨Cert.ReferenceIdeal.S64x1, .f32⟩ : BufTy).Contents (Elt Ideal))
    (hA : V c main_v56 = Cert.ReferenceIdeal.Read.val_main_v86 (F := Ideal) x0 x1 x2 x3 x4) :
    (dat2 V c).flushed 2 t = ((cfg2.win 2).blk t).view.read (Elt Ideal)
      (Cert.ReferenceIdeal.Read.val_main_v95 (F := Ideal) x0 x1 x2 x3 x4 (V c main_arg5)) := by
  show (cfg2.win 2).cut (grid2.coords t) ((dat2 V c).after 2 t) = _
  rw [after2_2]
  unfold out2_2
  rw [View.canon_unit_zero hz2]
  simp only [View.ld_unit_zero (S := S10000x1) hz2, View.ld_unit_zero (S := S1) hz1]
  obtain ⟨e0, e1, e2, e3, e4⟩ := idx_facts2 t
  funext j
  obtain ⟨p, u, rfl⟩ : ∃ (p : Fin 10000) (u : Fin 1), j = ix2 p u := ⟨j 0, j 1, eq_ix2 j⟩
  have hcut : ∀ P : Vec Ideal S10000x1 .f32, (cfg2.win 2).cut (grid2.coords t) P (ix2 p u) = P (ix2 p u) := fun _ => rfl
  have hread : ∀ G : (⟨Cert.ReferenceIdeal.S100000x1, .f32⟩ : BufTy).Contents (Elt Ideal),
      ((cfg2.win 2).blk t).view.read (Elt Ideal) G (ix2 p u) = G (((cfg2.win 2).blk t).view.emb (ix2 p u)) := fun _ => rfl
  refine (hcut _).trans (Eq.trans ?_ (hread _).symm)
  rw [k3_pay_apply, Cert.ReferenceIdeal.Read.val_main_v95_apply, Cert.ReferenceIdeal.Read.val_main_v94_apply,
    Cert.ReferenceIdeal.Read.val_main_cst_21_apply, Cert.ReferenceIdeal.Read.val_main_v93_apply,
    Cert.ReferenceIdeal.Read.val_main_v92_apply, Cert.ReferenceIdeal.Read.val_main_cst_20_apply,
    Cert.ReferenceIdeal.Read.val_main_v91_apply, Cert.ReferenceIdeal.Read.val_main_v90_apply,
    Cert.ReferenceIdeal.Read.val_main_v89_apply, Cert.ReferenceIdeal.Read.val_main_v88_apply,
    Cert.ReferenceIdeal.Read.val_main_v87_apply, ← hA]
  have hp : p.val < 10000 := p.isLt
  have hu : u.val = 0 := by have := u.isLt; omega
  have h0 : iblk2 V c 0 t (ix2 p u) = V c main_v56 (((cfg2.win 2).blk t).view.emb (ix2 p u)) := by
    show V c main_v56 (((cfg2.win 0).blk t).view.emb (ix2 p u)) = _
    refine congrArg (V c main_v56) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 1 + 1 * u.val = win2_2.index t (1 : Fin 2) * 1 + 1 * u.val; omega
  have h1 : iblk2 V c 1 t (ix1 u) = V c main_arg5 (Cert.ReferenceIdeal.Read.idx_main_v87 (Cert.ReferenceIdeal.Read.idx_main_v88
      (((cfg2.win 2).blk t).view.emb (ix2 p u)))) := by
    show V c main_arg5 (((cfg2.win 1).blk t).view.emb (ix1 u)) = _
    refine congrArg (V c main_arg5) (funext fun a => Fin.ext ?_)
    match a with
    | ⟨0, _⟩ => show win2_1.index t (0 : Fin 1) * 1 + 1 * u.val = 0; omega
  rw [h0, h1]
  show Ideal.div 1 (1 + Ideal.exp (-(_ + _))) = Ideal.div (Ideal.ofBits .f32 0x3F800000#32) (Ideal.ofBits .f32 0x3F800000#32 + Ideal.exp (-(_ + _)))
  rw [Ideal.ofBits_one_f32]

/-- An index of the result array is in point t's block iff each coordinate is in the block's range on its axis. -/
theorem mem_blk2 (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v57).slice (win2_2.rect t)).set ↔ _
  rw [View.set_slice_whole, Rect.mem_set_unit]
  exact Iff.rfl

/-- The ten blocks cover the 100000 rows: row r lies in block r / 10000. -/
theorem cover2 (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 10 := N_2
  let t : Fin cfg2.N := ⟨(i 0).val / 10000, by rw [hN]; omega⟩
  obtain ⟨-, -, -, e3, e4⟩ := idx_facts2 t
  have e3' : win2_2.index t (0 : Fin 2) = (i 0).val / 10000 := e3
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- After region 2 its result array is the reference's result of the arrays it found. -/
theorem final2 (c : Dev nD)
    (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal))
    (x4 : (⟨Cert.ReferenceIdeal.S64x1, .f32⟩ : BufTy).Contents (Elt Ideal))
    (hA : V c main_v56 = Cert.ReferenceIdeal.Read.val_main_v86 (F := Ideal) x0 x1 x2 x3 x4) :
    (dat2 V c).arrAt 2 cfg2.N
      = Cert.ReferenceIdeal.Read.val_main_v95 (F := Ideal) x0 x1 x2 x3 x4 (V c main_arg5) :=
  (dat2 V c).arrAt_eq_of_cover 2 _ (fun t _ => flushed2 V c t x0 x1 x2 x3 x4 hA) cover2

end

end Cert.KernelIdeal.Hand

end
-- ==== Proof.Walk57.lean ====
/-
  From region 0 to the result.  Between the regions the host gathers rows by source index, scales each gathered row by
  the edge's normalisation and adds it into the row of its destination index: the aggregation of a graph convolution.
  Region 0 leaves the first linear layer's product (Region0), so the first aggregation is the reference's; region 1
  then leaves the reference's second pre-activation (Region1), the second aggregation (same indices, same
  normalisation: the reference computes them a second time, by the same operations of the same edge list) is the
  reference's, and region 2 leaves the reference's result (Region2).
-/
import proofs.«173352_j70446053589555_1_alg».proof.Proof.Gen.KernelIdeal.Frame
import proofs.«173352_j70446053589555_1_alg».proof.Proof.RefReadPatched
import proofs.«173352_j70446053589555_1_alg».proof.Proof.Walk3
import proofs.«173352_j70446053589555_1_alg».proof.Proof.Region0
import proofs.«173352_j70446053589555_1_alg».proof.Proof.Region1
import proofs.«173352_j70446053589555_1_alg».proof.Proof.Region2
import Idealize.ShloMosaic.Lib.StableHlo.Run

set_option maxRecDepth 16384

noncomputable section

namespace Cert.ReferenceIdeal.Hand

open Cert.ReferenceIdeal Cert.ReferenceIdeal.Gen Cert.ReferenceIdeal.Read
open Idealize.ShloMosaic

variable {F : FTy → Type} [FloatOps F]

/-- The reference builds the source indices twice, by the same operations. -/
theorem src_twice (x1 : (⟨S2x3200000, .i32⟩ : BufTy).Contents (Elt F)) : val_main_v50 (F := F) x1 = val_main_v6 (F := F) x1 := by
  unfold val_main_v50 val_main_v6 val_main_v49 val_main_v5
  rfl
/-- The reference builds the destination indices twice, by the same operations. -/
theorem dst_twice (x1 : (⟨S2x3200000, .i32⟩ : BufTy).Contents (Elt F)) : val_main_v51 (F := F) x1 = val_main_v7 (F := F) x1 := by
  unfold val_main_v51 val_main_v7 val_main_v49 val_main_v5
  rfl
/-- The reference computes the per-edge normalisation twice, by the same operations of the edge list. -/
theorem norm_twice (x1 : (⟨S2x3200000, .i32⟩ : BufTy).Contents (Elt F)) : val_main_v74 (F := F) x1 = val_main_v30 (F := F) x1 := by
  unfold val_main_v74 val_main_v66 val_main_v59 val_main_v57 val_main_v55 val_main_v53 val_main_cst_10 val_main_v54 val_main_v51 val_main_v49 val_main_v52 val_main_cst_9 val_main_v56 val_main_cst_11 val_main_v58 val_main_call2_v1 val_main_call2_v0 val_main_cst_12 val_main_v65 val_main_v64 val_main_v61 val_main_v50 val_main_v60 val_main_c_13 val_main_v63 val_main_v62 val_main_c_14 val_main_v73 val_main_v72 val_main_v71 val_main_v68 val_main_v67 val_main_c_15 val_main_v70 val_main_v69 val_main_c_16
  unfold val_main_v30 val_main_v22 val_main_v15 val_main_v13 val_main_v11 val_main_v9 val_main_cst_0 val_main_v10 val_main_v7 val_main_v5 val_main_v8 val_main_cst val_main_v12 val_main_cst_1 val_main_v14 val_main_call0_v1 val_main_call0_v0 val_main_cst_2 val_main_v21 val_main_v20 val_main_v17 val_main_v6 val_main_v16 val_main_c val_main_v19 val_main_v18 val_main_c_3 val_main_v29 val_main_v28 val_main_v27 val_main_v24 val_main_v23 val_main_c_4 val_main_v26 val_main_v25 val_main_c_5
  rfl

end Cert.ReferenceIdeal.Hand

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's result, and the first aggregation -/

/-- After region 0 its result array is the product of the features with the first weight matrix. -/
theorem W4_v30 : W4 m ρ c (Proc.devRef .tc main_v30) = Cert.ReferenceIdeal.Read.val_main_v4 (F := Ideal) (m ((c.tc : Thread nD τ).loc main_arg0)) (m ((c.tc : Thread nD τ).loc main_arg2)) := by
  refine (W4_arr m ρ c 2).trans ((final0 (V3 m ρ) c).trans ?_)
  show Cert.ReferenceIdeal.Read.val_main_v4 (F := Ideal) (W3 m ρ c (Proc.devRef .tc main_arg0)) (W3 m ρ c (Proc.devRef .tc main_arg2)) = _
  rw [W3_arg0, W3_arg2]

/-- The first aggregation, as region 1 finds it. -/
theorem W5_v43 : W5 m ρ c (Proc.devRef .tc main_v43) = Cert.ReferenceIdeal.Read.val_main_v43 (F := Ideal) (m ((c.tc : Thread nD τ).loc main_arg0)) (m ((c.tc : Thread nD τ).loc main_arg1)) (m ((c.tc : Thread nD τ).loc main_arg2)) := by
  have h30 := W4_v30 m ρ c
  have h5 : W4 m ρ c (Proc.devRef .tc main_v5) = Cert.ReferenceIdeal.Read.val_main_v6 (F := Ideal) (m ((c.tc : Thread nD τ).loc main_arg1)) := (W4_of_ne m ρ c main_v5 (by decide)).trans (W3_v5 m ρ c)
  have h6 : W4 m ρ c (Proc.devRef .tc main_v6) = Cert.ReferenceIdeal.Read.val_main_v7 (F := Ideal) (m ((c.tc : Thread nD τ).loc main_arg1)) := (W4_of_ne m ρ c main_v6 (by decide)).trans (W3_v6 m ρ c)
  have h29 : W4 m ρ c (Proc.devRef .tc main_v29) = Cert.ReferenceIdeal.Read.val_main_v30 (F := Ideal) (m ((c.tc : Thread nD τ).loc main_arg1)) := (W4_of_ne m ρ c main_v29 (by decide)).trans (W3_v29 m ρ c)
  show StableHlo.after hostOps1 (W4 m ρ c) (Proc.devRef .tc main_v43) = _
  generalize W4 m ρ c = V at h30 h5 h6 h29 ⊢
  after_results_simp
  rw [h30, h5, h6, h29]
  unfold Cert.ReferenceIdeal.Read.val_main_v43 Cert.ReferenceIdeal.Read.val_main_v41 Cert.ReferenceIdeal.Read.val_main_cst_8 Cert.ReferenceIdeal.Read.val_main_v42 Cert.ReferenceIdeal.Read.val_main_v40 Cert.ReferenceIdeal.Read.val_main_v37 Cert.ReferenceIdeal.Read.val_main_v36 Cert.ReferenceIdeal.Read.val_main_v35 Cert.ReferenceIdeal.Read.val_main_v32 Cert.ReferenceIdeal.Read.val_main_v31 Cert.ReferenceIdeal.Read.val_main_c_6 Cert.ReferenceIdeal.Read.val_main_v34 Cert.ReferenceIdeal.Read.val_main_v33 Cert.ReferenceIdeal.Read.val_main_c_7 Cert.ReferenceIdeal.Read.val_main_v39 Cert.ReferenceIdeal.Read.val_main_v38
  generalize Cert.ReferenceIdeal.Read.val_main_v4 (F := Ideal) (m ((c.tc : Thread nD τ).loc main_arg0)) (m ((c.tc : Thread nD τ).loc main_arg2)) = a
  generalize Cert.ReferenceIdeal.Read.val_main_v6 (F := Ideal) (m ((c.tc : Thread nD τ).loc main_arg1)) = s
  generalize Cert.ReferenceIdeal.Read.val_main_v7 (F := Ideal) (m ((c.tc : Thread nD τ).loc main_arg1)) = d
  generalize Cert.ReferenceIdeal.Read.val_main_v30 (F := Ideal) (m ((c.tc : Thread nD τ).loc main_arg1)) = n
  rfl

theorem W5_v5 : W5 m ρ c (Proc.devRef .tc main_v5) = Cert.ReferenceIdeal.Read.val_main_v6 (F := Ideal) (m ((c.tc : Thread nD τ).loc main_arg1)) := by
  have h : W4 m ρ c (Proc.devRef .tc main_v5) = Cert.ReferenceIdeal.Read.val_main_v6 (F := Ideal) (m ((c.tc : Thread nD τ).loc main_arg1)) := (W4_of_ne m ρ c main_v5 (by decide)).trans (W3_v5 m ρ c)
  show StableHlo.after hostOps1 (W4 m ρ c) (Proc.devRef .tc main_v5) = _
  generalize W4 m ρ c = V at h ⊢
  after_results_simp
  exact h
theorem W5_v6 : W5 m ρ c (Proc.devRef .tc main_v6) = Cert.ReferenceIdeal.Read.val_main_v7 (F := Ideal) (m ((c.tc : Thread nD τ).loc main_arg1)) := by
  have h : W4 m ρ c (Proc.devRef .tc main_v6) = Cert.ReferenceIdeal.Read.val_main_v7 (F := Ideal) (m ((c.tc : Thread nD τ).loc main_arg1)) := (W4_of_ne m ρ c main_v6 (by decide)).trans (W3_v6 m ρ c)
  show StableHlo.after hostOps1 (W4 m ρ c) (Proc.devRef .tc main_v6) = _
  generalize W4 m ρ c = V at h ⊢
  after_results_simp
  exact h
theorem W5_v29 : W5 m ρ c (Proc.devRef .tc main_v29) = Cert.ReferenceIdeal.Read.val_main_v30 (F := Ideal) (m ((c.tc : Thread nD τ).loc main_arg1)) := by
  have h : W4 m ρ c (Proc.devRef .tc main_v29) = Cert.ReferenceIdeal.Read.val_main_v30 (F := Ideal) (m ((c.tc : Thread nD τ).loc main_arg1)) := (W4_of_ne m ρ c main_v29 (by decide)).trans (W3_v29 m ρ c)
  show StableHlo.after hostOps1 (W4 m ρ c) (Proc.devRef .tc main_v29) = _
  generalize W4 m ρ c = V at h ⊢
  after_results_simp
  exact h
theorem W5_arg3 : W5 m ρ c (Proc.devRef .tc main_arg3) = (m ((c.tc : Thread nD τ).loc main_arg3)) := by
  have h : W4 m ρ c (Proc.devRef .tc main_arg3) = (m ((c.tc : Thread nD τ).loc main_arg3)) := (W4_of_ne m ρ c main_arg3 (by decide)).trans (W3_arg3 m ρ c)
  show StableHlo.after hostOps1 (W4 m ρ c) (Proc.devRef .tc main_arg3) = _
  generalize W4 m ρ c = V at h ⊢
  after_results_simp
  exact h
theorem W5_arg4 : W5 m ρ c (Proc.devRef .tc main_arg4) = (m ((c.tc : Thread nD τ).loc main_arg4)) := by
  have h : W4 m ρ c (Proc.devRef .tc main_arg4) = (m ((c.tc : Thread nD τ).loc main_arg4)) := (W4_of_ne m ρ c main_arg4 (by decide)).trans (W3_arg4 m ρ c)
  show StableHlo.after hostOps1 (W4 m ρ c) (Proc.devRef .tc main_arg4) = _
  generalize W4 m ρ c = V at h ⊢
  after_results_simp
  exact h
theorem W5_arg5 : W5 m ρ c (Proc.devRef .tc main_arg5) = (m ((c.tc : Thread nD τ).loc main_arg5)) := by
  have h : W4 m ρ c (Proc.devRef .tc main_arg5) = (m ((c.tc : Thread nD τ).loc main_arg5)) := (W4_of_ne m ρ c main_arg5 (by decide)).trans (W3_arg5 m ρ c)
  show StableHlo.after hostOps1 (W4 m ρ c) (Proc.devRef .tc main_arg5) = _
  generalize W4 m ρ c = V at h ⊢
  after_results_simp
  exact h

/-! ## Region 1's result, and the second aggregation -/

/-- After region 1 its result array is the reference's second pre-activation. -/
theorem W6_v44 : W6 m ρ c (Proc.devRef .tc main_v44) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 3).trans ((final1 (V5 m ρ) c (m ((c.tc : Thread nD τ).loc main_arg0)) (m ((c.tc : Thread nD τ).loc main_arg1)) (m ((c.tc : Thread nD τ).loc main_arg2)) (W5_v43 m ρ c)).trans ?_)
  show Cert.ReferenceIdeal.Read.val_main_v48 (F := Ideal) (m ((c.tc : Thread nD τ).loc main_arg0)) (m ((c.tc : Thread nD τ).loc main_arg1)) (m ((c.tc : Thread nD τ).loc main_arg2)) (W5 m ρ c (Proc.devRef .tc main_arg3)) (W5 m ρ c (Proc.devRef .tc main_arg4)) = _
  rw [W5_arg3, W5_arg4]

/-- The second aggregation, as region 2 finds it. -/
theorem W7_v56 : W7 m ρ c (Proc.devRef .tc main_v56) = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h44 := W6_v44 m ρ c
  have h5 : W6 m ρ c (Proc.devRef .tc main_v5) = Cert.ReferenceIdeal.Read.val_main_v6 (F := Ideal) (m ((c.tc : Thread nD τ).loc main_arg1)) := (W6_of_ne m ρ c main_v5 (by decide)).trans (W5_v5 m ρ c)
  have h6 : W6 m ρ c (Proc.devRef .tc main_v6) = Cert.ReferenceIdeal.Read.val_main_v7 (F := Ideal) (m ((c.tc : Thread nD τ).loc main_arg1)) := (W6_of_ne m ρ c main_v6 (by decide)).trans (W5_v6 m ρ c)
  have h29 : W6 m ρ c (Proc.devRef .tc main_v29) = Cert.ReferenceIdeal.Read.val_main_v30 (F := Ideal) (m ((c.tc : Thread nD τ).loc main_arg1)) := (W6_of_ne m ρ c main_v29 (by decide)).trans (W5_v29 m ρ c)
  show StableHlo.after hostOps2 (W6 m ρ c) (Proc.devRef .tc main_v56) = _
  generalize W6 m ρ c = V at h44 h5 h6 h29 ⊢
  after_results_simp
  rw [h44, h5, h6, h29]
  unfold Cert.ReferenceIdeal.Read.val_main_v86 Cert.ReferenceIdeal.Read.val_main_v84 Cert.ReferenceIdeal.Read.val_main_cst_19 Cert.ReferenceIdeal.Read.val_main_v85 Cert.ReferenceIdeal.Read.val_main_v83 Cert.ReferenceIdeal.Read.val_main_v81 Cert.ReferenceIdeal.Read.val_main_v80 Cert.ReferenceIdeal.Read.val_main_v79 Cert.ReferenceIdeal.Read.val_main_v76 Cert.ReferenceIdeal.Read.val_main_v75 Cert.ReferenceIdeal.Read.val_main_c_17 Cert.ReferenceIdeal.Read.val_main_v78 Cert.ReferenceIdeal.Read.val_main_v77 Cert.ReferenceIdeal.Read.val_main_c_18 Cert.ReferenceIdeal.Read.val_main_v82
  rw [Cert.ReferenceIdeal.Hand.src_twice, Cert.ReferenceIdeal.Hand.dst_twice, Cert.ReferenceIdeal.Hand.norm_twice]
  generalize Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = a
  generalize Cert.ReferenceIdeal.Read.val_main_v6 (F := Ideal) (m ((c.tc : Thread nD τ).loc main_arg1)) = s
  generalize Cert.ReferenceIdeal.Read.val_main_v7 (F := Ideal) (m ((c.tc : Thread nD τ).loc main_arg1)) = d
  generalize Cert.ReferenceIdeal.Read.val_main_v30 (F := Ideal) (m ((c.tc : Thread nD τ).loc main_arg1)) = n
  rfl

theorem W7_arg5 : W7 m ρ c (Proc.devRef .tc main_arg5) = (m ((c.tc : Thread nD τ).loc main_arg5)) := by
  have h : W6 m ρ c (Proc.devRef .tc main_arg5) = (m ((c.tc : Thread nD τ).loc main_arg5)) := (W6_of_ne m ρ c main_arg5 (by decide)).trans (W5_arg5 m ρ c)
  show StableHlo.after hostOps2 (W6 m ρ c) (Proc.devRef .tc main_arg5) = _
  generalize W6 m ρ c = V at h ⊢
  after_results_simp
  exact h

/-! ## Region 2's result -/

/-- After region 2 the result array is the reference's result of the launch arguments. -/
theorem W8_v57 : W8 m ρ c (Proc.devRef .tc main_v57) = Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 2).trans ((final2 (V7 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (W7_v56 m ρ c)).trans ?_)
  show Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (W7 m ρ c (Proc.devRef .tc main_arg5)) = _
  rw [W7_arg5]

end Cert.KernelIdeal.Hand

end
-- ==== Proof.lean ====
/-
  A two-layer graph convolution (linear layer, normalised neighbourhood sum, bias and rectifier; second linear layer,
  the same neighbourhood sum, bias and logistic function) over 100000 nodes and 3200000 edges.  The kernel computes the
  three dense stages in three pipelined regions of ten row blocks each and leaves the gathers and scatter-adds between
  them to the host; the reference is the same computation written as one host program.

  At the ideal instance the two end with the same result, entry by entry, with no assumption on the inputs:
    • region 0's blocks tile the product  x · W1,  the reference's contraction (Region0);
    • region 1's blocks tile  ∑ₖ max(agg[r, k] + b1[k], 0) · W2[k, 0],  the reference's contraction of the rectified
      biased aggregate with W2 (Region1);
    • region 2's blocks tile  logistic(agg'[r, 0] + b2[0]),  and the logistic function of an extended real is by
      definition  1 / (1 + exp(−·)),  the reference's expression (Region2);
    • the host operations between the regions are the reference's own operations of the same operands (Walk3, Walk57),
      and the indices and the normalisation, which the reference computes once per layer, are the same function of the
      edge list both times.
  Only commutativity-free rewriting of finite sums is used (each sum is over the same index set in the same form), so
  the precondition is never opened.  The kernel's idealization rewrote no operation, so there is nothing to preserve.
-/
import proofs.«173352_j70446053589555_1_alg».proof.Defs
import proofs.«173352_j70446053589555_1_alg».proof.Proof.Gen.Kernel
import proofs.«173352_j70446053589555_1_alg».proof.Proof.Gen.Kernel.Skeleton
import proofs.«173352_j70446053589555_1_alg».proof.Proof.Gen.Kernel.Launch
import proofs.«173352_j70446053589555_1_alg».proof.Proof.Gen.Kernel.Points
import proofs.«173352_j70446053589555_1_alg».proof.Proof.Gen.Kernel.Frame
import proofs.«173352_j70446053589555_1_alg».proof.Proof.Gen.KernelIdeal
import proofs.«173352_j70446053589555_1_alg».proof.Proof.Gen.KernelIdeal.Skeleton
import proofs.«173352_j70446053589555_1_alg».proof.Proof.Gen.KernelIdeal.Launch
import proofs.«173352_j70446053589555_1_alg».proof.Proof.Gen.KernelIdeal.Points
import proofs.«173352_j70446053589555_1_alg».proof.Proof.Gen.KernelIdeal.Frame
import proofs.«173352_j70446053589555_1_alg».proof.Proof.Gen.ReferenceIdeal
import proofs.«173352_j70446053589555_1_alg».proof.Proof.Gen.Pre_finite_inputs
import proofs.«173352_j70446053589555_1_alg».proof.Proof.RefRunPatched
import proofs.«173352_j70446053589555_1_alg».proof.Proof.RefReadPatched
import proofs.«173352_j70446053589555_1_alg».proof.Proof.KernelRun
import proofs.«173352_j70446053589555_1_alg».proof.Proof.Walk57
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end, and the result arrays are equal: the kernel's is
    the reference's composed term of the arguments (W8_v57), which is what the reference's own run leaves. -/
theorem algebraic : Cert.algebraic_KernelIdeal_ReferenceIdeal := by
  intro m ρ m' ρ' _ hagree
  refine ⟨fun c => Cert.KernelIdeal.Gen.W8 m ρ c (Proc.devRef .tc Cert.KernelIdeal.main_v57),
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  refine Eq.trans ?_ (Cert.KernelIdeal.Hand.W8_v57 m ρ c).symm
  rw [Cert.ReferenceIdeal.Read.val_main_v95_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
